-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x2048 : Shape := ⟨3, ![64, 256, 2048]⟩
abbrev S2048x256 : Shape := ⟨2, ![2048, 256]⟩
abbrev S_ : Shape := ⟨0, ![]⟩

class Facts : Prop where
  bcast_S_S64x256x2048 : S_.BroadcastsInDim S64x256x2048 (![] : Fin 0 → Fin S64x256x2048.rank)
  reducesTo_S64x256x2048_S_d0_1_2 : S64x256x2048.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S64x256x2048 .f32) (main_arg1 : FVec F S2048x256 .f32) (main_arg2 : FVec F S2048x256 .f32) : IVec S_ 1 :=
  let main_v0 : FVec F S64x256x2048 .f32 := Host.absf main_arg0
  let main_cst : FVec F S_ .f32 := constant S_ .f32 0x7F800000#32
  let main_v1 : FVec F S64x256x2048 .f32 := broadcastInDim S64x256x2048 ![] bcast_S_S64x256x2048 main_cst
  let main_v2 : IVec S64x256x2048 1 := cmpf .olt main_v0 main_v1
  let main_c : IVec S_ 1 := constantI S_ 1 1#1
  let main_v3 : IVec S_ 1 := (fun x v => Host.reduce IntOp.andi x v reducesTo_S64x256x2048_S_d0_1_2 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  main_v13
-- ==== Kernel.lean ====
abbrev S64x256x2048 : Shape := ⟨3, ![64, 256, 2048]⟩
abbrev S2048x256 : Shape := ⟨2, ![2048, 256]⟩
abbrev S256x1 : Shape := ⟨2, ![256, 1]⟩
abbrev S4x256x2048 : Shape := ⟨3, ![4, 256, 2048]⟩
abbrev S256x2048 : Shape := ⟨2, ![256, 2048]⟩
abbrev S256 : Shape := ⟨1, ![256]⟩
abbrev S_ : Shape := ⟨0, ![]⟩
abbrev S1x256x1 : Shape := ⟨3, ![1, 256, 1]⟩
abbrev S2x256x2048 : Shape := ⟨3, ![2, 256, 2048]⟩
abbrev S1x256x2048 : Shape := ⟨3, ![1, 256, 2048]⟩

abbrev nBuf : Space → Nat
  | .hbm => 22
  | .vmem => 12
  | .smem => 0
  | _ => 0

abbrev bufTy : (tb : Table) → Fin (tcTables nBuf tb) → BufTy
  | .hbm, ⟨0, _⟩ => ⟨S64x256x2048, .f32⟩
  | .hbm, ⟨1, _⟩ => ⟨S2048x256, .f32⟩
  | .hbm, ⟨2, _⟩ => ⟨S2048x256, .f32⟩
  | .hbm, ⟨3, _⟩ => ⟨S256x1, .f32⟩
  | .hbm, ⟨4, _⟩ => ⟨S256x1, .f32⟩
  | .hbm, ⟨5, _⟩ => ⟨S_, .f32⟩
  | .hbm, ⟨6, _⟩ => ⟨S256x1, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S1x256x1, .f32⟩
  | .hbm, ⟨18, _⟩ => ⟨S1x256x1, .f32⟩
  | .hbm, ⟨19, _⟩ => ⟨S256x2048, .f32⟩
  | .hbm, ⟨20, _⟩ => ⟨S256x2048, .f32⟩
  | .hbm, ⟨21, _⟩ => ⟨S64x256x2048, .f32⟩
  | .local _ .vmem, ⟨0, _⟩ => ⟨S4x256x2048, .f32⟩
  | .local _ .vmem, ⟨1, _⟩ => ⟨S4x256x2048, .f32⟩
  | .local _ .vmem, ⟨2, _⟩ => ⟨S256x1, .f32⟩
  | .local _ .vmem, ⟨3, _⟩ => ⟨S256x1, .f32⟩
  | .local _ .vmem, ⟨4, _⟩ => ⟨S2x256x2048, .f32⟩
  | .local _ .vmem, ⟨5, _⟩ => ⟨S2x256x2048, .f32⟩
  | .local _ .vmem, ⟨6, _⟩ => ⟨S1x256x1, .f32⟩
  | .local _ .vmem, ⟨7, _⟩ => ⟨S1x256x1, .f32⟩
  | .local _ .vmem, ⟨8, _⟩ => ⟨S256x2048, .f32⟩
  | .local _ .vmem, ⟨9, _⟩ => ⟨S256x2048, .f32⟩
  | .local _ .vmem, ⟨10, _⟩ => ⟨S2x256x2048, .f32⟩
  | .local _ .vmem, ⟨11, _⟩ => ⟨S2x256x2048, .f32⟩
  | _, _ => ⟨S64x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S256x1_S256x1_0_0 : ∀ a, (![0, 0] : Fin 2 → Nat) a + S256x1.size a ≤ S256x1.size a
  h_S256x1 : 0 < S256x1.numel
  inb_S4x256x2048_S4x256x2048_0_0_0 : ∀ a, (![0, 0, 0] : Fin 3 → Nat) a + S4x256x2048.size a ≤ S4x256x2048.size a
  h_S4x256x2048 : 0 < S4x256x2048.numel
  reduces_S4x256x2048_S256x2048 : S4x256x2048.Reduces [0] S256x2048
  reduces_S256x2048_S256 : S256x2048.Reduces [1] S256
  shapeCasts_S256_S256x1 : S256.ShapeCasts S256x1
  shapeCasts_S256x1_S256x1 : S256x1.ShapeCasts S256x1
  bcast_S_S256x1 : S_.BroadcastsInDim S256x1 (![] : Fin 0 → Fin S256x1.rank)
  shapeCasts_S256x1_S1x256x1 : S256x1.ShapeCasts S1x256x1
  transposes_S2048x256_S256x2048_1_0 : S2048x256.Transposes [1, 0] S256x2048
  inb_S2x256x2048_S2x256x2048_0_0_0 : ∀ a, (![0, 0, 0] : Fin 3 → Nat) a + S2x256x2048.size a ≤ S2x256x2048.size a
  h_S2x256x2048 : 0 < S2x256x2048.numel
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  broadcasts_S1x256x1_S2x256x2048 : S1x256x1.Broadcasts S2x256x2048
  shapeCasts_S256x2048_S1x256x2048 : S256x2048.ShapeCasts S1x256x2048
  broadcasts_S1x256x2048_S2x256x2048 : S1x256x2048.Broadcasts S2x256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x2048.size a ≤ S64x256x2048.size a
  hwx0_0 : ∀ i : grid0.Coords, EltTy.bits .f32 = 32 ∨ (Rect.block (s := S64x256x2048) S4x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x256x2048.size a ≤ S64x256x2048.size a
  hwx1_0 : ∀ i : grid1.Coords, EltTy.bits .f32 = 32 ∨ (Rect.block (s := S64x256x2048) S2x256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256x1.size a ≤ S1x256x1.size a
  hwx1_1 : ∀ i : grid1.Coords, EltTy.bits .f32 = 32 ∨ (Rect.block (s := S1x256x1) S1x256x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256x1.size a ≤ S1x256x1.size a
  hwx1_2 : ∀ i : grid1.Coords, EltTy.bits .f32 = 32 ∨ (Rect.block (s := S1x256x1) S1x256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S256x2048.size a
  hwx1_3 : ∀ i : grid1.Coords, EltTy.bits .f32 = 32 ∨ (Rect.block (s := S256x2048) S256x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S256x2048.size a
  hwx1_4 : ∀ i : grid1.Coords, EltTy.bits .f32 = 32 ∨ (Rect.block (s := S256x2048) S256x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x256x2048.size a ≤ S64x256x2048.size a
  hwx1_5 : ∀ i : grid1.Coords, EltTy.bits .f32 = 32 ∨ (Rect.block (s := S64x256x2048) S2x256x2048.size (cc1_transform_5 i) (hinb1_5 i)).WholeWords (EltTy.packing .f32)

variable [Facts₀]

abbrev win0_0 : Pipeline.Window sig grid0 :=
  Pipeline.Window.ofSpec (Memref.whole main_arg0) S4x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S256x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S256x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S256x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S256x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S2x256x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x256x2048 : Shape := ⟨3, ![64, 256, 2048]⟩
abbrev S2048x256 : Shape := ⟨2, ![2048, 256]⟩
abbrev S_ : Shape := ⟨0, ![]⟩
abbrev S256 : Shape := ⟨1, ![256]⟩
abbrev S1x256x1 : Shape := ⟨3, ![1, 256, 1]⟩
abbrev S256x2048 : Shape := ⟨2, ![256, 2048]⟩
abbrev S1x256x2048 : Shape := ⟨3, ![1, 256, 2048]⟩

abbrev nBuf : Space → Nat
  | .hbm => 34
  | .vmem => 0
  | .smem => 0
  | _ => 0

abbrev bufTy : (tb : Table) → Fin (tcTables nBuf tb) → BufTy
  | .hbm, ⟨0, _⟩ => ⟨S64x256x2048, .f32⟩
  | .hbm, ⟨1, _⟩ => ⟨S2048x256, .f32⟩
  | .hbm, ⟨2, _⟩ => ⟨S2048x256, .f32⟩
  | .hbm, ⟨3, _⟩ => ⟨S_, .f32⟩
  | .hbm, ⟨4, _⟩ => ⟨S256, .f32⟩
  | .hbm, ⟨5, _⟩ => ⟨S1x256x1, .f32⟩
  | .hbm, ⟨6, _⟩ => ⟨S_, .f32⟩
  | .hbm, ⟨7, _⟩ => ⟨S1x256x1, .f32⟩
  | .hbm, ⟨8, _⟩ => ⟨S1x256x1, .f32⟩
  | .hbm, ⟨9, _⟩ => ⟨S64x256x2048, .f32⟩
  | .hbm, ⟨10, _⟩ => ⟨S64x256x2048, .f32⟩
  | .hbm, ⟨11, _⟩ => ⟨S64x256x2048, .f32⟩
  | .hbm, ⟨12, _⟩ => ⟨S_, .f32⟩
  | .hbm, ⟨13, _⟩ => ⟨S256, .f32⟩
  | .hbm, ⟨14, _⟩ => ⟨S1x256x1, .f32⟩
  | .hbm, ⟨15, _⟩ => ⟨S_, .f32⟩
  | .hbm, ⟨16, _⟩ => ⟨S1x256x1, .f32⟩
  | .hbm, ⟨17, _⟩ => ⟨S1x256x1, .f32⟩
  | .hbm, ⟨18, _⟩ => ⟨S64x256x2048, .f32⟩
  | .hbm, ⟨19, _⟩ => ⟨S64x256x2048, .f32⟩
  | .hbm, ⟨20, _⟩ => ⟨S_, .f32⟩
  | .hbm, ⟨21, _⟩ => ⟨S1x256x1, .f32⟩
  | .hbm, ⟨22, _⟩ => ⟨S1x256x1, .f32⟩
  | .hbm, ⟨23, _⟩ => ⟨S1x256x1, .f32⟩
  | .hbm, ⟨24, _⟩ => ⟨S64x256x2048, .f32⟩
  | .hbm, ⟨25, _⟩ => ⟨S64x256x2048, .f32⟩
  | .hbm, ⟨26, _⟩ => ⟨S256x2048, .f32⟩
  | .hbm, ⟨27, _⟩ => ⟨S1x256x2048, .f32⟩
  | .hbm, ⟨28, _⟩ => ⟨S64x256x2048, .f32⟩
  | .hbm, ⟨29, _⟩ => ⟨S64x256x2048, .f32⟩
  | .hbm, ⟨30, _⟩ => ⟨S256x2048, .f32⟩
  | .hbm, ⟨31, _⟩ => ⟨S1x256x2048, .f32⟩
  | .hbm, ⟨32, _⟩ => ⟨S64x256x2048, .f32⟩
  | .hbm, ⟨33, _⟩ => ⟨S64x256x2048, .f32⟩
  | _, _ => ⟨S64x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  reducesTo_S64x256x2048_S256_d0_2 : S64x256x2048.ReducesTo [0, 2] S256
  h_S_ : 0 < S_.numel
  bcast_S256_S1x256x1_1 : S256.BroadcastsInDim S1x256x1 (![1] : Fin 1 → Fin S1x256x1.rank)
  bcast_S_S1x256x1 : S_.BroadcastsInDim S1x256x1 (![] : Fin 0 → Fin S1x256x1.rank)
  bcast_S1x256x1_S64x256x2048_0_1_2 : S1x256x1.BroadcastsInDim S64x256x2048 (![0, 1, 2] : Fin 3 → Fin S64x256x2048.rank)
  transposes_S2048x256_S256x2048_1_0 : S2048x256.Transposes [1, 0] S256x2048
  bcast_S256x2048_S1x256x2048_1_2 : S256x2048.BroadcastsInDim S1x256x2048 (![1, 2] : Fin 2 → Fin S1x256x2048.rank)
  bcast_S1x256x2048_S64x256x2048_0_1_2 : S1x256x2048.BroadcastsInDim S64x256x2048 (![0, 1, 2] : Fin 3 → Fin S64x256x2048.rank)

variable [Facts₀]

class Facts : Prop extends Facts₀ where

variable [Facts]
-- ==== Proof.BnSpec.lean ====
/-
  Batch normalisation of an array x[b, q, r] (64 × 256 × 2048) per channel q, with an affine map whose
  coefficients g[r, q], b[r, q] depend on the position r and the channel q, written on the extended reals.

  For a channel q the statistics run over the 64 · 2048 entries x[·, q, ·]:
    mean q  = (Σ_b Σ_r x[b, q, r]) / n,                                   n = 131072 = 64 · 2048,
    varK q  = (Σ_b Σ_r x[b, q, r]²) / n − (mean q)²                        (mean of squares minus squared mean),
    varR q  = (Σ_b Σ_r (x[b, q, r] − mean q)²) / n                         (mean squared deviation),
  and the result at (p, q, r) is ((x[p, q, r] − mean q) · rsqrt (var q + ε)) · g[r, q] + b[r, q].
  The two variances are one real number whenever every x[b, q, r] is a real number; with an infinite entry they need
  not be. This module only states the functions; the laws are proved elsewhere.
-/
import Idealize.ShloMosaic.PureOps.Ideal
import Idealize.ShloMosaic.Lib.ValueIdx

noncomputable section

open scoped BigOperators

namespace Cert.BnSpec

open Idealize.ShloMosaic Idealize.ShloMosaic.ValueIdx

/-- The index set of x: (batch, channel, position). -/
abbrev XIdx : Type := (⟨3, ![64, 256, 2048]⟩ : Shape).Idx
/-- The index set of the affine coefficients: (position, channel). -/
abbrev PIdx : Type := (⟨2, ![2048, 256]⟩ : Shape).Idx

/-- The number of entries per channel, as the f32 word both programs spell (131072.0). -/
def cnt : EReal := Ideal.ofBits .f32 0x48000000#32
/-- The stabiliser ε, as the f32 word both programs spell (the f32 nearest 1e-4). -/
def eps : EReal := Ideal.ofBits .f32 0x38D1B717#32

/-- The sum of a family over (batch, position). -/
def total (f : Fin 64 → Fin 2048 → EReal) : EReal := ∑ b : Fin 64, ∑ r : Fin 2048, f b r

/-- Row j of the i-th group of four consecutive batch rows: 4 i + j. -/
def blockRow (i : Fin 16) (j : Fin 4) : Fin 64 := ⟨4 * i.val + j.val, by omega⟩

/-- The channel's mean. -/
def mean (x : XIdx → EReal) (q : Fin 256) : EReal := Ideal.div (total fun b r => x (ix3 b q r)) cnt

/-- The channel's variance as mean of squares minus squared mean. -/
def varK (x : XIdx → EReal) (q : Fin 256) : EReal :=
  Ideal.div (total fun b r => x (ix3 b q r) * x (ix3 b q r)) cnt - mean x q * mean x q

/-- The channel's variance as mean squared deviation from the mean. -/
def varR (x : XIdx → EReal) (q : Fin 256) : EReal :=
  Ideal.div (total fun b r => (x (ix3 b q r) - mean x q) * (x (ix3 b q r) - mean x q)) cnt

/-- The normalised, scaled and shifted entry at (p, q, r), for a given per-channel variance. -/
def outAt (var : Fin 256 → EReal) (x : XIdx → EReal) (g b : PIdx → EReal) (p : Fin 64) (q : Fin 256) (r : Fin 2048) : EReal :=
  ((x (ix3 p q r) - mean x q) * Ideal.rsqrt (var q + eps)) * g (ix2 r q) + b (ix2 r q)

/-- The whole result array. -/
def outArr (var : Fin 256 → EReal) (x : XIdx → EReal) (g b : PIdx → EReal) : XIdx → EReal :=
  fun i => outAt var x g b (i 0) (i 1) (i 2)

end Cert.BnSpec

end
-- ==== Proof.BnAlgebra.lean ====
/-
  Three laws of the batch-normalisation specification, on the extended reals.

  (1) The word 0x48000000 read as an IEEE binary32 number has sign 0, biased exponent 144 and fraction 0, so it
      denotes 2^(144 − 127) = 2^17 = 131072 = 64 · 2048.

  (2) The 64 batch rows split into sixteen groups of four consecutive rows; (i, j) ↦ 4 i + j is a bijection
      Fin 16 × Fin 4 ≃ Fin 64. Summing group after group, and inside a group first over the four rows and then over
      the positions, visits every (batch, position) exactly once, so by commutativity and associativity of + it is
      the sum over all (batch, position). No subtraction occurs, hence it holds for all extended reals.

  (3) For real numbers a_i (i in a finite set of n ≠ 0 elements) with mean μ = (Σ a_i) / n,
        Σ (a_i − μ)² = Σ a_i² − 2 μ Σ a_i + n μ² = Σ a_i² − n μ²,
      so (Σ (a_i − μ)²) / n = (Σ a_i²) / n − μ². When every entry of x is real, every quantity in the two variances
      is the image of a real number under the embedding ℝ → EReal, which commutes with +, −, · and finite sums; the
      identity on the reals therefore transfers.
-/
import Mathlib
import Idealize.ShloMosaic.PureOps.Ideal
import Idealize.ShloMosaic.PureOps.Ideal.Laws
import Idealize.ShloMosaic.Lib.ValueIdx
import proofs.«161485_j4209067950399_2_alg».proof.Proof.BnSpec

noncomputable section

open scoped BigOperators

namespace Cert.BnAlgebra
open Idealize.ShloMosaic Idealize.ShloMosaic.ValueIdx

/-- The f32 word 0x48000000 denotes the real 131072 = 2^17 = 64 · 2048. -/
theorem cnt_eq : Cert.BnSpec.cnt = ((131072 : ℝ) : EReal) := by
  unfold Cert.BnSpec.cnt
  simp [Ideal.ofBits, Ideal.ieee, -EReal.coe_mul]
  norm_num

/-- The bijection (i, j) ↦ 4 i + j between sixteen groups of four rows and the 64 rows. -/
def blockEquiv : Fin 16 × Fin 4 ≃ Fin 64 where
  toFun p := Cert.BnSpec.blockRow p.1 p.2
  invFun b := (⟨b.val / 4, by omega⟩, ⟨b.val % 4, by omega⟩)
  left_inv := by
    rintro ⟨i, j⟩
    apply Prod.ext
    · apply Fin.ext
      simp only [Cert.BnSpec.blockRow]
      omega
    · apply Fin.ext
      simp only [Cert.BnSpec.blockRow]
      omega
  right_inv := by
    intro b
    apply Fin.ext
    simp only [Cert.BnSpec.blockRow]
    omega

/-- Summing the sixteen groups of four consecutive batch rows one after the other — per group first over the four rows
    (innermost), then over the positions — is the sum over all (batch, position). Only commutativity and
    associativity of + are used: it holds for ALL extended reals. -/
theorem total_blocks (f : Fin 64 → Fin 2048 → EReal) :
    ∑ i : Fin 16, ∑ r : Fin 2048, ∑ j : Fin 4, f (Cert.BnSpec.blockRow i j) r = Cert.BnSpec.total f := by
  unfold Cert.BnSpec.total
  have h1 : ∀ i : Fin 16, ∑ r : Fin 2048, ∑ j : Fin 4, f (Cert.BnSpec.blockRow i j) r
      = ∑ j : Fin 4, ∑ r : Fin 2048, f (Cert.BnSpec.blockRow i j) r := fun i => Finset.sum_comm
  simp_rw [h1]
  rw [← Fintype.sum_prod_type (f := fun p : Fin 16 × Fin 4 => ∑ r : Fin 2048, f (Cert.BnSpec.blockRow p.1 p.2) r)]
  exact Equiv.sum_comp blockEquiv (fun b : Fin 64 => ∑ r : Fin 2048, f b r)

/-- The embedding of the reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Mean squared deviation equals mean of squares minus squared mean, for finitely many reals. -/
theorem real_var {ι : Type*} [Fintype ι] (a : ι → ℝ) (n : ℝ) (hn : n ≠ 0) (hcard : (Fintype.card ι : ℝ) = n) :
    (∑ i, (a i - (∑ i, a i) * (1/n)) * (a i - (∑ i, a i) * (1/n))) * (1/n)
      = (∑ i, a i * a i) * (1/n) - ((∑ i, a i) * (1/n)) * ((∑ i, a i) * (1/n)) := by
  set S : ℝ := ∑ i, a i with hS
  have hexp : ∀ i, (a i - S * (1/n)) * (a i - S * (1/n))
      = a i * a i - (2 * (S * (1/n))) * a i + (S * (1/n)) * (S * (1/n)) := fun i => by ring
  simp_rw [hexp]
  rw [Finset.sum_add_distrib, Finset.sum_sub_distrib, ← Finset.mul_sum, Finset.sum_const, Finset.card_univ,
    nsmul_eq_mul, hcard, ← hS]
  field_simp
  ring

/-- The sum over (batch, position) of a family of reals, embedded, is the embedded real sum over the pairs. -/
theorem total_coe (h : Fin 64 → Fin 2048 → ℝ) :
    Cert.BnSpec.total (fun b r => ((h b r : ℝ) : EReal))
      = ((∑ p : Fin 64 × Fin 2048, h p.1 p.2 : ℝ) : EReal) := by
  unfold Cert.BnSpec.total
  rw [Fintype.sum_prod_type, coe_sum]
  refine Finset.sum_congr rfl fun b _ => ?_
  rw [coe_sum]

/-- Division by the entry count is multiplication by the real 1/131072. -/
theorem div_cnt (t : EReal) : Ideal.div t Cert.BnSpec.cnt = t * ((1 / 131072 : ℝ) : EReal) := by
  rw [cnt_eq]
  exact Ideal.div_coe (by norm_num) t

/-- The mean of a channel with real entries is the embedded real mean. -/
theorem mean_coe (x : Cert.BnSpec.XIdx → EReal) (xr : Cert.BnSpec.XIdx → ℝ) (hxr : ∀ i, x i = ((xr i : ℝ) : EReal))
    (q : Fin 256) :
    Cert.BnSpec.mean x q
      = (((∑ p : Fin 64 × Fin 2048, xr (ix3 p.1 q p.2)) * (1 / 131072) : ℝ) : EReal) := by
  unfold Cert.BnSpec.mean
  simp_rw [hxr]
  rw [total_coe (fun b r => xr (ix3 b q r)), div_cnt, ← EReal.coe_mul]

/-- When every entry of x is a real number the two spellings of a channel's variance agree. -/
theorem varR_eq_varK (x : Cert.BnSpec.XIdx → EReal) (hx : ∀ i, ∃ r : ℝ, x i = (r : EReal)) (q : Fin 256) :
    Cert.BnSpec.varR x q = Cert.BnSpec.varK x q := by
  choose xr hxr using hx
  unfold Cert.BnSpec.varR Cert.BnSpec.varK
  rw [mean_coe x xr hxr q]
  simp_rw [hxr, ← EReal.coe_sub, ← EReal.coe_mul]
  rw [total_coe (fun b r => (xr (ix3 b q r) - (∑ p : Fin 64 × Fin 2048, xr (ix3 p.1 q p.2)) * (1 / 131072))
        * (xr (ix3 b q r) - (∑ p : Fin 64 × Fin 2048, xr (ix3 p.1 q p.2)) * (1 / 131072))),
    total_coe (fun b r => xr (ix3 b q r) * xr (ix3 b q r)), div_cnt, div_cnt,
    ← EReal.coe_mul, ← EReal.coe_mul, ← EReal.coe_sub]
  refine congrArg (fun t : ℝ => (t : EReal)) ?_
  exact real_var (fun p : Fin 64 × Fin 2048 => xr (ix3 p.1 q p.2)) 131072 (by norm_num)
    (by simp [Fintype.card_prod])

end Cert.BnAlgebra

end
-- ==== Proof.BnReference.lean ====
/-
  What the reference program computes, read index by index on the extended reals: the normalisation of x[b, q, r] per
  channel q, with the variance taken as the mean squared deviation from the channel's mean.

  The program's two sums run over the batch and the position together, at every channel. A sum of that kind, read at
  the channel q, is the initial value plus the double sum over (b, r) of the operand at (b, q, r): the indices whose
  batch and position are dropped to q are exactly the (b, q, r), one for each pair (b, r).
-/
import proofs.«161485_j4209067950399_2_alg».proof.Proof.Gen.ReferenceIdeal.Read
import proofs.«161485_j4209067950399_2_alg».proof.Proof.BnSpec
import Idealize.ShloMosaic.PureOps.Ideal.Laws
import Idealize.ShloMosaic.Lib.ValueIdx
import Idealize.ShloMosaic.Lib.Pipeline.Value

noncomputable section

open scoped BigOperators

namespace Cert.BnReference
open Cert.ReferenceIdeal Cert.ReferenceIdeal.Gen Idealize.ShloMosaic Idealize.ShloMosaic.ValueIdx

/-! ## The sum over batch and position, read at a channel -/

/-- Dropping the batch and the position of (b, q, r) leaves the channel q. -/
theorem drop_ix3 (b : Fin 64) (q : Fin 256) (r : Fin 2048) :
    reducesTo_S64x256x2048_S256_d0_2.drop (ix3 b q r) = ix1 q := by
  funext a
  match a with
  | ⟨0, _⟩ => rfl

/-- An index that drops to the channel q has q as its middle coordinate. -/
theorem eq_ix3_of_drop (i : S64x256x2048.Idx) (q : Fin 256)
    (h : reducesTo_S64x256x2048_S256_d0_2.drop i = ix1 q) : i = ix3 (i 0) q (i 2) := by
  have h1 : i 1 = q := Fin.ext (congrArg Fin.val (congrFun h ⟨0, Nat.one_pos⟩))
  funext a
  match a with
  | ⟨0, _⟩ => rfl
  | ⟨1, _⟩ => exact h1
  | ⟨2, _⟩ => rfl

/-- The pairs (b, r) embed into the indices as (b, q, r). -/
def pairEmb (q : Fin 256) : Fin 64 × Fin 2048 ↪ S64x256x2048.Idx :=
  ⟨fun p => ix3 p.1 q p.2, fun p p' h => Prod.ext (congrFun h 0) (congrFun h 2)⟩

/-- The indices the sum gathers at the channel q are the (b, q, r). -/
theorem filter_drop (q : Fin 256) :
    Finset.univ.filter (fun i : S64x256x2048.Idx => reducesTo_S64x256x2048_S256_d0_2.drop i = ix1 q)
      = Finset.univ.map (pairEmb q) := by
  ext i
  simp only [Finset.mem_filter, Finset.mem_univ, true_and, Finset.mem_map, pairEmb, Function.Embedding.coeFn_mk]
  exact ⟨fun h => ⟨(i 0, i 2), (eq_ix3_of_drop i q h).symm⟩, fun ⟨p, hp⟩ => hp ▸ drop_ix3 p.1 q p.2⟩

/-- The sum over batch and position at the channel q: the initial value plus the double sum over (b, r). -/
theorem hostReduceAdd_at (x : S64x256x2048.Idx → EReal) (init : EReal) (q : Fin 256) :
    Ideal.hostReduceAdd reducesTo_S64x256x2048_S256_d0_2 x init (ix1 q)
      = init + ∑ b : Fin 64, ∑ r : Fin 2048, x (ix3 b q r) := by
  unfold Ideal.hostReduceAdd
  rw [filter_drop, Finset.sum_map, Fintype.sum_prod_type]
  rfl

/-! ## The stages, read at an index -/

section Stages

variable (x0 : (⟨S64x256x2048, .f32⟩ : BufTy).Contents (Elt Ideal))

/-- The first sum at the channel q is the total of the channel's entries. -/
theorem v0_at (q : Fin 256) :
    Read.val_main_v0 (F := Ideal) x0 (ix1 q) = Cert.BnSpec.total fun b r => x0 (ix3 b q r) := by
  show Ideal.hostReduceAdd reducesTo_S64x256x2048_S256_d0_2 x0 (Ideal.ofBits .f32 0x00000000#32) (ix1 q) = _
  rw [hostReduceAdd_at, Ideal.ofBits_zero_f32, zero_add]
  rfl

/-- The quotient stage at the channel q is the channel's mean. -/
theorem v3_at (q : Fin 256) :
    Read.val_main_v3 (F := Ideal) x0 (ix3 (0 : Fin 1) q (0 : Fin 1)) = Cert.BnSpec.mean x0 q := by
  rw [Read.val_main_v3_apply, Read.val_main_v1_apply, Read.val_main_v2_apply, Read.val_main_cst_0_apply]
  have hi : Read.idx_main_v1 (ix3 (0 : Fin 1) q (0 : Fin 1)) = ix1 q :=
    funext fun a => match a with | ⟨0, _⟩ => rfl
  rw [hi, v0_at]
  rfl

/-- An entry's index read back through a broadcast along batch and position: the channel's slot. -/
theorem idx_bcast (p : Fin 64) (q : Fin 256) (r : Fin 2048) :
    Read.idx_main_v4 (ix3 p q r) = ix3 (0 : Fin 1) q (0 : Fin 1) :=
  funext fun a => match a with | ⟨0, _⟩ => rfl | ⟨1, _⟩ => rfl | ⟨2, _⟩ => rfl

/-- The deviation stage: the entry minus its channel's mean. -/
theorem v5_at (p : Fin 64) (q : Fin 256) (r : Fin 2048) :
    Read.val_main_v5 (F := Ideal) x0 (ix3 p q r) = x0 (ix3 p q r) - Cert.BnSpec.mean x0 q := by
  rw [Read.val_main_v5_apply, Read.val_main_v4_apply, idx_bcast, v3_at]
  rfl

/-- The second deviation stage is the same. -/
theorem v12_at (p : Fin 64) (q : Fin 256) (r : Fin 2048) :
    Read.val_main_v12 (F := Ideal) x0 (ix3 p q r) = x0 (ix3 p q r) - Cert.BnSpec.mean x0 q := by
  rw [Read.val_main_v12_apply, Read.val_main_v11_apply, show Read.idx_main_v11 (ix3 p q r) = ix3 (0 : Fin 1) q (0 : Fin 1) from idx_bcast p q r, v3_at]
  rfl

/-- The squared deviation. -/
theorem v6_at (p : Fin 64) (q : Fin 256) (r : Fin 2048) :
    Read.val_main_v6 (F := Ideal) x0 (ix3 p q r)
      = (x0 (ix3 p q r) - Cert.BnSpec.mean x0 q) * (x0 (ix3 p q r) - Cert.BnSpec.mean x0 q) := by
  rw [Read.val_main_v6_apply, v5_at]
  rfl

/-- The second sum at the channel q is the total of the squared deviations. -/
theorem v7_at (q : Fin 256) :
    Read.val_main_v7 (F := Ideal) x0 (ix1 q)
      = Cert.BnSpec.total fun b r => (x0 (ix3 b q r) - Cert.BnSpec.mean x0 q) * (x0 (ix3 b q r) - Cert.BnSpec.mean x0 q) := by
  show Ideal.hostReduceAdd reducesTo_S64x256x2048_S256_d0_2 (Read.val_main_v6 (F := Ideal) x0) (Ideal.ofBits .f32 0x00000000#32) (ix1 q) = _
  rw [hostReduceAdd_at, Ideal.ofBits_zero_f32, zero_add]
  unfold Cert.BnSpec.total
  exact Finset.sum_congr rfl fun b _ => Finset.sum_congr rfl fun r _ => v6_at x0 b q r

/-- The second quotient stage at the channel q is the mean squared deviation. -/
theorem v10_at (q : Fin 256) :
    Read.val_main_v10 (F := Ideal) x0 (ix3 (0 : Fin 1) q (0 : Fin 1)) = Cert.BnSpec.varR x0 q := by
  rw [Read.val_main_v10_apply, Read.val_main_v8_apply, Read.val_main_v9_apply, Read.val_main_cst_2_apply]
  have hi : Read.idx_main_v8 (ix3 (0 : Fin 1) q (0 : Fin 1)) = ix1 q :=
    funext fun a => match a with | ⟨0, _⟩ => rfl
  rw [hi, v7_at]
  rfl

/-- The scale stage: the reciprocal square root of the variance plus the stabiliser, at every entry of the channel. -/
theorem v16_at (p : Fin 64) (q : Fin 256) (r : Fin 2048) :
    Read.val_main_v16 (F := Ideal) x0 (ix3 p q r) = Ideal.rsqrt (Cert.BnSpec.varR x0 q + Cert.BnSpec.eps) := by
  rw [Read.val_main_v16_apply, show Read.idx_main_v16 (ix3 p q r) = ix3 (0 : Fin 1) q (0 : Fin 1) from idx_bcast p q r,
    Read.val_main_v15_apply, Read.val_main_v14_apply, v10_at, Read.val_main_v13_apply, Read.val_main_cst_3_apply]
  rfl

end Stages

/-- The first coefficient array, transposed and broadcast along the batch, read at (p, q, r): its entry (r, q). -/
theorem v20_at (x1 : (⟨S2048x256, .f32⟩ : BufTy).Contents (Elt Ideal)) (p : Fin 64) (q : Fin 256) (r : Fin 2048) :
    Read.val_main_v20 (F := Ideal) x1 (ix3 p q r) = x1 (ix2 r q) := by
  rw [Read.val_main_v20_apply, Read.val_main_v19_apply, Read.val_main_v18_apply]
  exact congrArg x1 (funext fun a => match a with | ⟨0, _⟩ => rfl | ⟨1, _⟩ => rfl)

/-- The second coefficient array likewise. -/
theorem v24_at (x2 : (⟨S2048x256, .f32⟩ : BufTy).Contents (Elt Ideal)) (p : Fin 64) (q : Fin 256) (r : Fin 2048) :
    Read.val_main_v24 (F := Ideal) x2 (ix3 p q r) = x2 (ix2 r q) := by
  rw [Read.val_main_v24_apply, Read.val_main_v23_apply, Read.val_main_v22_apply]
  exact congrArg x2 (funext fun a => match a with | ⟨0, _⟩ => rfl | ⟨1, _⟩ => rfl)

/-- The reference's result, as the generated stage `val_main_v25` of its three argument arrays, is the normalisation
    with the variance taken as the mean squared deviation. -/
theorem ref_value (x0 : (⟨S64x256x2048, .f32⟩ : BufTy).Contents (Elt Ideal)) (x1 x2 : (⟨S2048x256, .f32⟩ : BufTy).Contents (Elt Ideal)) :
    Cert.ReferenceIdeal.Read.val_main_v25 (F := Ideal) x0 x1 x2 = Cert.BnSpec.outArr (Cert.BnSpec.varR x0) x0 x1 x2 := by
  funext i
  obtain ⟨p, q, r, rfl⟩ : ∃ (p : Fin 64) (q : Fin 256) (r : Fin 2048), i = ix3 p q r := ⟨i 0, i 1, i 2, eq_ix3 i⟩
  show _ = Cert.BnSpec.outAt (Cert.BnSpec.varR x0) x0 x1 x2 p q r
  rw [Read.val_main_v25_apply, Read.val_main_v21_apply, Read.val_main_v17_apply, v12_at, v16_at, v20_at, v24_at]
  rfl

end Cert.BnReference

end
-- ==== Proof.BnFinite.lean ====
/-
  The precondition on the inputs, read back: it states that every entry of each of the three arrays has absolute value
  below +∞. For the first array this leaves every entry a real number, since the absolute value of either infinity
  is +∞.
-/
import proofs.«161485_j4209067950399_2_alg».proof.Pre_finite_inputs
import Idealize.ShloMosaic.Lib.ReduceAll
import Idealize.ShloMosaic.PureOps.Ideal.Laws
import Idealize.ShloMosaic.Lib.ValueIdx

namespace Cert.BnFinite
open Idealize.ShloMosaic

/-- The rank-zero shape has one index. -/
instance : Subsingleton Cert.Pre_finite_inputs.S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value is below +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- A comparison "less than" that came out 1 is the strict order of the extended reals. -/
theorem lt_of_cmp_olt (a b : EReal) (h : Ideal.cmp .olt a b = 1#1) : a < b := by
  by_contra hn
  have h' : BitVec.ofBool (decide (a < b)) = 1#1 := h
  rw [decide_eq_false hn] at h'
  exact absurd h' (by decide)

/-- If the precondition's function of the three arrays is all ones, every entry of the first array is a real number:
    |x| < +∞ excludes both infinities. -/
theorem x_real [Cert.Pre_finite_inputs.Facts] (x : FVec Ideal Cert.Pre_finite_inputs.S64x256x2048 .f32)
    (g b : FVec Ideal Cert.Pre_finite_inputs.S2048x256 .f32)
    (h : Cert.Pre_finite_inputs.fn (F := Ideal) x g b = fun _ => 1#1) : ∀ i, ∃ r : ℝ, x i = (r : EReal) := by
  intro i
  have h0 := congrFun h ValueIdx.ix0
  dsimp only [Cert.Pre_finite_inputs.fn] at h0
  obtain ⟨h1, _⟩ := IntOp.andi_eq_one.1 h0
  obtain ⟨h2, _⟩ := IntOp.andi_eq_one.1 h1
  have h3 := Host.reduce_andi_all _ _ _ _ _ h2 i
  have h4 : Ideal.cmp .olt (max (x i) (-(x i))) (Ideal.ofBits .f32 0x7F800000#32) = 1#1 := h3
  rw [ofBits_inf] at h4
  exact real_of_abs_lt_top (x i) (lt_of_cmp_olt _ _ h4)

end Cert.BnFinite
-- ==== Proof.BnRun.lean ====
/-
  The idealized kernel program's run, read at its result array. The program is two grid regions with a stretch of
  host operations between them; its buffers' contents at the end of the run are a fold through those three segments
  from the launch memory: after the statistics region its two result columns hold what the region's write-backs
  leave, the host stretch computes mean and inverse deviation from them, and after the normalisation region the
  result array holds what that region's write-backs leave. Every weakly fair execution terminates, nothing faults,
  the three argument arrays end as launched, and the result array ends at that fold's value.
-/
import proofs.«161485_j4209067950399_2_alg».proof.Proof.Gen.KernelIdeal.Frame

set_option maxRecDepth 16384

noncomputable section

namespace Cert.KernelIdeal.BnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_value : θ_run defs (onTc (τ := τ) (main (F := F))) ⟨m, fun _ => 0, ρ⟩ (fun r => ∀ c : Dev nD,
      r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.BnRun

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.BnStatsPay.lean ====
/-
  The statistics kernel's arithmetic at one channel. Its body loads a tile x[j, q, r] of four batch rows and the
  running column acc[q, 0]; it sums the tile over its four rows, then over the positions r (keeping a unit axis), and
  stores acc + that partial sum; the second output does the same with the squares x·x. Read at channel q:
    acc[q, 0] + Σ_r Σ_j x[j, q, r]      and      acc[q, 0] + Σ_r Σ_j x[j, q, r]·x[j, q, r].
  At the first grid point the running columns are first set to the zero column.
-/
import proofs.«161485_j4209067950399_2_alg».proof.Proof.Gen.KernelIdeal.Skeleton
import proofs.«161485_j4209067950399_2_alg».proof.Proof.LibKeepdims
import Idealize.ShloMosaic.Lib.ValueIdx
import Idealize.ShloMosaic.Lib.Pipeline.Value
import Idealize.ShloMosaic.PureOps.Ideal.Laws

noncomputable section

open scoped BigOperators

namespace Cert.KernelIdeal.BnStatsPay

open Cert.KernelIdeal Cert.KernelIdeal.Gen Idealize.ShloMosaic Idealize.ShloMosaic.ValueIdx

/-- A tile summed over its four rows and then over the positions, kept as a column, read at channel q. -/
theorem tile_sum (w : FVec Ideal S4x256x2048 .f32) (h0 : S4x256x2048.Reduces [0] S256x2048) (h1 : S256x2048.Reduces [1] S256)
    (hc : S256.ShapeCasts S256x1) (hφ : FKind.Formats .f32) (ha0 : (0x00000000#32 : BitVec 32) = FKind.add.neutral .f32 hφ)
    (q : Fin 256) (u : Fin 1) :
    shapeCast S256x1 (multiReduction .add [1] S256 (multiReduction .add [0] S256x2048 w 0x00000000#32 h0 hφ ha0) 0x00000000#32 h1 hφ ha0) hc (ix2 q u)
      = ∑ r : Fin 2048, ∑ j : Fin 4, w (ix3 j q r) := by
  refine (Cert.LibKeepdims.shapeCast_a_a1_apply _ hc q u).trans ?_
  refine (Cert.LibKeepdims.multiReduction_add_lastAxis_apply _ _ h1 hφ ha0 q).trans ?_
  refine Finset.sum_congr rfl fun r _ => ?_
  refine (Ideal.multiReduction_add_single w _ h0 hφ ha0 (ix2 q r)).trans ?_
  refine Finset.sum_congr rfl fun j _ => congrArg w ?_
  funext ax; apply Fin.ext
  match ax with
  | ⟨0, _⟩ => rfl
  | ⟨1, _⟩ => rfl
  | ⟨2, _⟩ => rfl

/-- The first output's stored value at channel q: the running entry plus the tile's sum. -/
theorem pay_sum (v3 : Vec Ideal S4x256x2048 .f32) (v11 : Vec Ideal S256x1 .f32) (q : Fin 256) (u : Fin 1) :
    k0_pay3 v3 v11 (ix2 q u) = v11 (ix2 q u) + ∑ r : Fin 2048, ∑ j : Fin 4, v3 (ix3 j q r) := by
  unfold k0_pay3
  simp only [addf_apply, shapeCast_self]
  exact congrArg (v11 (ix2 q u) + ·) (tile_sum v3 _ _ _ _ _ q u)

/-- The second output's stored value at channel q: the running entry plus the sum of the tile's squares. -/
theorem pay_sumsq (v3 : Vec Ideal S4x256x2048 .f32) (v15 : Vec Ideal S256x1 .f32) (q : Fin 256) (u : Fin 1) :
    k0_pay4 v3 v15 (ix2 q u) = v15 (ix2 q u) + ∑ r : Fin 2048, ∑ j : Fin 4, v3 (ix3 j q r) * v3 (ix3 j q r) := by
  unfold k0_pay4
  simp only [addf_apply, shapeCast_self]
  exact congrArg (v15 (ix2 q u) + ·) (tile_sum (mulf v3 v3) _ _ _ _ _ q u)

/-- The zero column the first point stores, at any entry. -/
theorem pay_zero1 (i : S256x1.Idx) : k0_pay1 (F := Ideal) i = 0 := by
  unfold k0_pay1
  exact Ideal.ofBits_zero_f32

theorem pay_zero2 (i : S256x1.Idx) : k0_pay2 (F := Ideal) i = 0 := by
  unfold k0_pay2
  exact Ideal.ofBits_zero_f32

end Cert.KernelIdeal.BnStatsPay

end
-- ==== Proof.BnStats.lean ====
/-
  What the statistics region leaves in its two result columns. The region has sixteen grid points; point i loads the
  tile of batch rows 4i … 4i+3 of x and adds, per channel q, the tile's sum over (row, position) to a running column
  that the first point starts from zero; a second column accumulates the squares in the same way. Neither column is
  written back before the last point, whose write-back is the whole [256, 1] array. So the arrays end at
    sum[q, 0]   = 0 + Σ_{i<16} Σ_r Σ_j x[4i+j, q, r]      and      sumsq[q, 0] = 0 + Σ_{i<16} Σ_r Σ_j x[4i+j, q, r]².
-/
import proofs.«161485_j4209067950399_2_alg».proof.Proof.Gen.KernelIdeal.Frame
import proofs.«161485_j4209067950399_2_alg».proof.Proof.BnStatsPay
import Idealize.ShloMosaic.Lib.Pipeline.Value
import Idealize.ShloMosaic.Lib.Tactic

set_option maxRecDepth 16384

noncomputable section

open scoped BigOperators

namespace Cert.KernelIdeal.BnStats

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- At a later point the body leaves, in the first column's buffer holding xo1, the stored sum of the tile x and xo1. -/
theorem out_B_1 (c : Dev nD) (i : grid0.Coords) (a1 : Memref sig .tc .vmem S4x256x2048 .f32) (h1 : a1.IsWhole)
    (a2 : Memref sig .tc .vmem S256x1 .f32) (h2 : a2.IsWhole) (a3 : Memref sig .tc .vmem S256x1 .f32) (h3 : a3.IsWhole)
    (hc : ¬cond0_0 i) (x : Vec F S4x256x2048 .f32) (xo1 xo2 : Vec F S256x1 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  rw [View.canon_unit_zero hz]
  simp only [View.readAt_eq_ld, h1.read_unread, h2.read_unread, View.ld_unit_zero (S := S256x1) hz, View.ld_unit_zero (S := S4x256x2048) hz3]

theorem out_B_2 (c : Dev nD) (i : grid0.Coords) (a1 : Memref sig .tc .vmem S4x256x2048 .f32) (h1 : a1.IsWhole)
    (a2 : Memref sig .tc .vmem S256x1 .f32) (h2 : a2.IsWhole) (a3 : Memref sig .tc .vmem S256x1 .f32) (h3 : a3.IsWhole)
    (hc : ¬cond0_0 i) (x : Vec F S4x256x2048 .f32) (xo1 xo2 : Vec F S256x1 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  rw [View.canon_unit_zero hz]
  simp only [View.readAt_eq_ld, h1.read_unread, h3.read_unread, View.ld_unit_zero (S := S256x1) hz, View.ld_unit_zero (S := S4x256x2048) hz3]

theorem out_A_1 (c : Dev nD) (i : grid0.Coords) (a1 : Memref sig .tc .vmem S4x256x2048 .f32) (h1 : a1.IsWhole)
    (a2 : Memref sig .tc .vmem S256x1 .f32) (h2 : a2.IsWhole) (a3 : Memref sig .tc .vmem S256x1 .f32) (h3 : a3.IsWhole)
    (hc : cond0_0 i) (x : Vec F S4x256x2048 .f32) :
    out0_A_1 c i a1 h1 a2 h2 a3 h3 hc x = k0_pay3 x k0_pay1 := by
  unfold out0_A_1
  rw [View.read_writes_eq_canon _ _ _ (cover0_A_1 c i a1 h1 a2 h2 a3 h3 hc x)]
  unfold kernelRun0_A
  dsimp only
  sl_unfold_words
  rw [View.canon_cons_unit_zero (S := S256x1) hz, View.readCov_unit_zero (S := S256x1) _ hz]
  simp only [View.readAt_eq_ld, h1.read_unread, View.ld_unit_zero (S := S4x256x2048) hz3]

theorem out_A_2 (c : Dev nD) (i : grid0.Coords) (a1 : Memref sig .tc .vmem S4x256x2048 .f32) (h1 : a1.IsWhole)
    (a2 : Memref sig .tc .vmem S256x1 .f32) (h2 : a2.IsWhole) (a3 : Memref sig .tc .vmem S256x1 .f32) (h3 : a3.IsWhole)
    (hc : cond0_0 i) (x : Vec F S4x256x2048 .f32) :
    out0_A_2 c i a1 h1 a2 h2 a3 h3 hc x = k0_pay4 x k0_pay2 := by
  unfold out0_A_2
  rw [View.read_writes_eq_canon _ _ _ (cover0_A_2 c i a1 h1 a2 h2 a3 h3 hc x)]
  unfold kernelRun0_A
  dsimp only
  sl_unfold_words
  rw [View.canon_cons_unit_zero (S := S256x1) hz, View.readCov_unit_zero (S := S256x1) _ hz]
  simp only [View.readAt_eq_ld, h1.read_unread, View.ld_unit_zero (S := S4x256x2048) hz3]

/-! ## The running columns, point by point -/

section Running

variable (V : (c : Dev nD) → (b : Ref sig .tc) → Buf (Elt F) ((c : Thread nD τ).loc b))

/-- The first column after point n: the first point adds its tile's sum to the zero column, every later point to what
    the point before left. -/
def run1 (c : Dev nD) : (n : ℕ) → n < cfg0.N → Vec F S256x1 .f32
  | 0, h => k0_pay3 (iblk0 V c 0 ⟨0, h⟩) k0_pay1
  | n + 1, h => k0_pay3 (iblk0 V c 0 ⟨n + 1, h⟩) (run1 c n (Nat.lt_of_succ_lt h))

/-- The second column after point n, likewise with the squares. -/
def run2 (c : Dev nD) : (n : ℕ) → n < cfg0.N → Vec F S256x1 .f32
  | 0, h => k0_pay4 (iblk0 V c 0 ⟨0, h⟩) k0_pay2
  | n + 1, h => k0_pay4 (iblk0 V c 0 ⟨n + 1, h⟩) (run2 c n (Nat.lt_of_succ_lt h))

/-- What the two staging buffers hold after point n is the pair of running columns: by induction on the point. -/
theorem outsAt_eq (c : Dev nD) : ∀ (n : ℕ) (h : n < cfg0.N), outsAt0 V c n h = (run1 V c n h, run2 V c n h)
  | 0, h => by
    rw [outsAt0_A V c ⟨0, h⟩ rfl, out_A_1, out_A_2]
    rfl
  | n + 1, h => by
    have hN : cfg0.N = 16 := N_0
    have hB : ¬(⟨n + 1, h⟩ : Fin cfg0.N).val % 16 = 0 := by dsimp only; omega
    rw [outsAt0_B V c ⟨n + 1, h⟩ hB, out_B_1, out_B_2]
    show (k0_pay3 _ (outsAt0 V c n _).1, k0_pay4 _ (outsAt0 V c n _).2) = _
    rw [outsAt_eq c n]
    rfl

theorem outsAt_fst (c : Dev nD) (n : ℕ) (h : n < cfg0.N) : (outsAt0 V c n h).1 = run1 V c n h :=
  congrArg Prod.fst (outsAt_eq V c n h)
theorem outsAt_snd (c : Dev nD) (n : ℕ) (h : n < cfg0.N) : (outsAt0 V c n h).2 = run2 V c n h :=
  congrArg Prod.snd (outsAt_eq V c n h)

end Running

/-! ## The running columns as sums, and the arrays at the end -/

section Value

variable (V : (c : Dev nD) → (b : Ref sig .tc) → Buf (Elt Ideal) ((c : Thread nD τ).loc b))

/-- Batch row j of the tile at grid point i (written with a remainder so that it is a row for every natural number i;
    at the sixteen points the remainder changes nothing). -/
def rowOf (i : ℕ) (j : Fin 4) : Fin 64 := ⟨(4 * i + j.val) % 64, Nat.mod_lt _ (by decide)⟩

/-- The input window's block index at point t is (t, 0, 0): decided over the grid. -/
theorem idx_tile : ∀ t : Fin cfg0.N, win0_0.index t (0 : Fin 3) = t.val ∧ win0_0.index t (1 : Fin 3) = 0 ∧ win0_0.index t (2 : Fin 3) = 0 :=
  (by decide +kernel : ∀ t : Fin grid0.N, _)

/-- The tile at point t reads x at rows 4t … 4t+3. -/
theorem tile_at (c : Dev nD) (t : Fin cfg0.N) (j : Fin 4) (q : Fin 256) (r : Fin 2048) :
    iblk0 V c 0 t (ix3 j q r) = V c main_arg0 (ix3 (rowOf t.val j) q r) := by
  obtain ⟨e0, e1, e2⟩ := idx_tile t
  have hN : t.val < 16 := lt_of_lt_of_eq t.isLt N_0
  have hj : j.val < 4 := j.isLt
  show V c main_arg0 (((cfg0.win 0).blk t).view.emb (ix3 j q r)) = _
  refine congrArg (V c main_arg0) (funext fun ax => Fin.ext ?_)
  match ax with
  | ⟨0, _⟩ => show win0_0.index t (0 : Fin 3) * 4 + 1 * j.val = (4 * t.val + j.val) % 64; rw [e0]; omega
  | ⟨1, _⟩ => show win0_0.index t (1 : Fin 3) * 256 + 1 * q.val = q.val; rw [e1]; omega
  | ⟨2, _⟩ => show win0_0.index t (2 : Fin 3) * 2048 + 1 * r.val = r.val; rw [e2]; omega

/-- The sum of x over the tile of point i, at channel q. -/
def grp1 (x : Vec Ideal S64x256x2048 .f32) (q : Fin 256) (i : ℕ) : EReal :=
  ∑ r : Fin 2048, ∑ j : Fin 4, x (ix3 (rowOf i j) q r)
/-- The sum of x² over the tile of point i, at channel q. -/
def grp2 (x : Vec Ideal S64x256x2048 .f32) (q : Fin 256) (i : ℕ) : EReal :=
  ∑ r : Fin 2048, ∑ j : Fin 4, x (ix3 (rowOf i j) q r) * x (ix3 (rowOf i j) q r)

/-- The first running column after point n, at channel q: zero plus the tiles' sums up to n. -/
theorem run1_at (c : Dev nD) (q : Fin 256) (u : Fin 1) : ∀ (n : ℕ) (h : n < cfg0.N),
    run1 V c n h (ix2 q u) = 0 + ∑ i ∈ Finset.range (n + 1), grp1 (V c main_arg0) q i
  | 0, h => by
    show k0_pay3 _ _ (ix2 q u) = _
    refine (BnStatsPay.pay_sum _ _ q u).trans ?_
    rw [BnStatsPay.pay_zero1, Finset.sum_range_one]
    refine congrArg (fun z : EReal => (0 : EReal) + z) ?_
    refine Finset.sum_congr rfl fun r _ => Finset.sum_congr rfl fun j _ => ?_
    exact tile_at V c ⟨0, h⟩ j q r
  | n + 1, h => by
    show k0_pay3 _ _ (ix2 q u) = _
    refine (BnStatsPay.pay_sum _ _ q u).trans ?_
    rw [run1_at c q u n, Finset.sum_range_succ _ (n + 1), ← add_assoc]
    refine congrArg (fun z : EReal => (0 + ∑ i ∈ Finset.range (n + 1), grp1 (V c main_arg0) q i) + z) ?_
    refine Finset.sum_congr rfl fun r _ => Finset.sum_congr rfl fun j _ => ?_
    exact tile_at V c ⟨n + 1, h⟩ j q r

/-- The second running column after point n, at channel q: zero plus the tiles' sums of squares up to n. -/
theorem run2_at (c : Dev nD) (q : Fin 256) (u : Fin 1) : ∀ (n : ℕ) (h : n < cfg0.N),
    run2 V c n h (ix2 q u) = 0 + ∑ i ∈ Finset.range (n + 1), grp2 (V c main_arg0) q i
  | 0, h => by
    show k0_pay4 _ _ (ix2 q u) = _
    refine (BnStatsPay.pay_sumsq _ _ q u).trans ?_
    rw [BnStatsPay.pay_zero2, Finset.sum_range_one]
    refine congrArg (fun z : EReal => (0 : EReal) + z) ?_
    refine Finset.sum_congr rfl fun r _ => Finset.sum_congr rfl fun j _ => ?_
    exact congrArg (fun z : EReal => z * z) (tile_at V c ⟨0, h⟩ j q r)
  | n + 1, h => by
    show k0_pay4 _ _ (ix2 q u) = _
    refine (BnStatsPay.pay_sumsq _ _ q u).trans ?_
    rw [run2_at c q u n, Finset.sum_range_succ _ (n + 1), ← add_assoc]
    refine congrArg (fun z : EReal => (0 + ∑ i ∈ Finset.range (n + 1), grp2 (V c main_arg0) q i) + z) ?_
    refine Finset.sum_congr rfl fun r _ => Finset.sum_congr rfl fun j _ => ?_
    exact congrArg (fun z : EReal => z * z) (tile_at V c ⟨n + 1, h⟩ j q r)

/-- The columns after the last point, as contents of the two result arrays (one block is the whole array). -/
abbrev res1 (c : Dev nD) : Buf (Elt Ideal) ((c : Thread nD τ).loc main_v0_0) := run1 V c 15 (by rw [show cfg0.N = 16 from N_0]; decide)
abbrev res2 (c : Dev nD) : Buf (Elt Ideal) ((c : Thread nD τ).loc main_v0_1) := run2 V c 15 (by rw [show cfg0.N = 16 from N_0]; decide)

/-- The one write-back of the first column, at the last point, writes the whole array. -/
theorem flushed1 (c : Dev nD) (t : Fin cfg0.N) (hf : (cfg0.win 1).flush t = true) :
    (dat0 V c).flushed 1 t = ((cfg0.win 1).blk t).view.read (Elt Ideal) (res1 V c) := by
  have hN : cfg0.N = 16 := N_0
  have h15 : t.val = 15 := by have := (flush0_1 t).mp hf; have := t.isLt; omega
  obtain rfl : t = t0_15 := Fin.ext h15
  show (cfg0.win 1).cut (grid0.coords t0_15) ((dat0 V c).after 1 t0_15) = _
  rw [after0_1, outsAt_fst]
  have hz' : (fun a => win0_1.index t0_15 a * main_v0_0.ty.shape.size a) = fun _ => 0 := funext fun a => by fin_cases a <;> decide
  exact (Memref.read_access_unit_zero (Elt Ideal) main_v0_0 hz' (fun a => by rw [congrFun hz' a]; simp) (res1 V c)).symm

theorem flushed2 (c : Dev nD) (t : Fin cfg0.N) (hf : (cfg0.win 2).flush t = true) :
    (dat0 V c).flushed 2 t = ((cfg0.win 2).blk t).view.read (Elt Ideal) (res2 V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2, outsAt_snd]
  have hz' : (fun a => win0_2.index t0_15 a * main_v0_1.ty.shape.size a) = fun _ => 0 := funext fun a => by fin_cases a <;> decide
  exact (Memref.read_access_unit_zero (Elt Ideal) main_v0_1 hz' (fun a => by rw [congrFun hz' a]; simp) (res2 V c)).symm

/-- So the first result array ends holding the first column after the last point. -/
theorem final1 (c : Dev nD) : (dat0 V c).arrAt 1 cfg0.N = res1 V c :=
  (dat0 V c).arrAt_eq_of_cover 1 (res1 V c) (flushed1 V c) fun i =>
    ⟨t0_15, (flush0_1 t0_15).mpr rfl, by
      show i ∈ ((View.whole main_v0_0).slice (win0_1.rect t0_15)).set
      rw [View.set_slice_whole, Rect.mem_set_unit]
      intro a
      have h0 : (i 0 : Nat) < 256 := (i 0).isLt
      have h1 : (i 1 : Nat) < 1 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 256 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 1 from by decide +kernel]; omega⟩

theorem final2 (c : Dev nD) : (dat0 V c).arrAt 2 cfg0.N = res2 V c :=
  (dat0 V c).arrAt_eq_of_cover 2 (res2 V c) (flushed2 V c) fun i =>
    ⟨t0_15, (flush0_2 t0_15).mpr rfl, by
      show i ∈ ((View.whole main_v0_1).slice (win0_2.rect t0_15)).set
      rw [View.set_slice_whole, Rect.mem_set_unit]
      intro a
      have h0 : (i 0 : Nat) < 256 := (i 0).isLt
      have h1 : (i 1 : Nat) < 1 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 256 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1 from by decide +kernel]; omega⟩

/-- The first result array at channel q: zero plus the sixteen tiles' sums. -/
theorem sum_at (c : Dev nD) (q : Fin 256) (u : Fin 1) :
    (dat0 V c).arrAt 1 cfg0.N (ix2 q u) = 0 + ∑ i ∈ Finset.range 16, grp1 (V c main_arg0) q i := by
  rw [final1]
  exact run1_at V c q u 15 _

/-- The second result array at channel q: zero plus the sixteen tiles' sums of squares. -/
theorem sumsq_at (c : Dev nD) (q : Fin 256) (u : Fin 1) :
    (dat0 V c).arrAt 2 cfg0.N (ix2 q u) = 0 + ∑ i ∈ Finset.range 16, grp2 (V c main_arg0) q i := by
  rw [final2]
  exact run2_at V c q u 15 _

end Value

end Cert.KernelIdeal.BnStats

end
-- ==== Proof.BnHost.lean ====
/-
  The host operations between the two grid regions, read at an index on the extended reals.

  The first region leaves, for each channel q, the sum s1[q] of the channel's entries and the sum s2[q] of their
  squares, as two columns of shape [256, 1]. The host operations then form
    mean[q]   = s1[q] / 131072,
    meansq[q] = s2[q] / 131072,
    var[q]    = meansq[q] − mean[q] · mean[q],
    inv[q]    = rsqrt (var[q] + ε),
  view mean and inv as [1, 256, 1] (the same entries in the same order), and transpose the two coefficient arrays
  from [2048, 256] to [256, 2048]. The array x is not touched. The second region therefore starts from x as launched,
  from the coefficients with their coordinates exchanged, and from the mean and the scale written above.
-/
import proofs.«161485_j4209067950399_2_alg».proof.Proof.Gen.KernelIdeal.Frame
import proofs.«161485_j4209067950399_2_alg».proof.Proof.BnSpec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384
noncomputable section
namespace Cert.KernelIdeal.BnHost
open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-! ## The arguments: what no host operation writes, and the two transposes -/

/-- The array x enters the second region as launched: the first region only reads it and no host operation writes it. -/
theorem entry_x (c : Dev nD) : V2 m ρ c main_arg0 = m ((c : Thread nD τ).loc main_arg0) :=
  calc V2 m ρ c main_arg0
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The first coefficient array's buffer after the first region is the launch memory's. -/
theorem W1_arg1 (c : Dev nD) : W1 m ρ c (Proc.devRef .tc main_arg1) = m ((c : Thread nD τ).loc main_arg1) :=
  (W1_of_ne m ρ c main_arg1 (by decide)).trans rfl

/-- The second coefficient array's likewise. -/
theorem W1_arg2 (c : Dev nD) : W1 m ρ c (Proc.devRef .tc main_arg2) = m ((c : Thread nD τ).loc main_arg2) :=
  (W1_of_ne m ρ c main_arg2 (by decide)).trans rfl

/-- The first transposed coefficient array, as a term. -/
theorem v12_term (c : Dev nD) :
    (V2 m ρ c main_v12 : S256x2048.Idx → EReal)
      = transpose S256x2048 [1, 0] (m ((c : Thread nD τ).loc main_arg1)) transposes_S2048x256_S256x2048_1_0 := by
  rw [← W1_arg1 m ρ c]
  show StableHlo.after hostOps1 (W1 m ρ c) (Proc.devRef .tc main_v12) = _
  after_results

/-- The second, as a term. -/
theorem v13_term (c : Dev nD) :
    (V2 m ρ c main_v13 : S256x2048.Idx → EReal)
      = transpose S256x2048 [1, 0] (m ((c : Thread nD τ).loc main_arg2)) transposes_S2048x256_S256x2048_1_0 := by
  rw [← W1_arg2 m ρ c]
  show StableHlo.after hostOps1 (W1 m ρ c) (Proc.devRef .tc main_v13) = _
  after_results

/-- The first coefficient array enters the second region transposed: at (q, r) its entry (r, q). -/
theorem entry_g (c : Dev nD) (q : Fin 256) (r : Fin 2048) :
    V2 m ρ c main_v12 (ix2 q r) = m ((c : Thread nD τ).loc main_arg1) (ix2 r q) :=
  (congrFun (v12_term m ρ c) (ix2 q r)).trans (transpose_ix2_apply _ _ q r)

/-- The second likewise. -/
theorem entry_b (c : Dev nD) (q : Fin 256) (r : Fin 2048) :
    V2 m ρ c main_v13 (ix2 q r) = m ((c : Thread nD τ).loc main_arg2) (ix2 r q) :=
  (congrFun (v13_term m ρ c) (ix2 q r)).trans (transpose_ix2_apply _ _ q r)

/-! ## The mean and the scale -/

/-- The quotient by the count, viewed as [1, 256, 1], read at the channel q. -/
theorem mean_read (s1 : S256x1.Idx → EReal) (q : Fin 256) :
    shapeCast S1x256x1 (Host.divf (F := Ideal) s1
        (broadcastInDim S256x1 ![] bcast_S_S256x1 (constant (F := Ideal) S_ .f32 0x48000000#32)))
      shapeCasts_S256x1_S1x256x1 (ix3 (0 : Fin 1) q (0 : Fin 1))
      = Ideal.div (s1 (ix2 q 0)) Cert.BnSpec.cnt := by
  rw [shapeCast_ab_1ab_apply]
  rfl

/-- The scale, viewed as [1, 256, 1], read at the channel q. -/
theorem inv_read (s1 s2 : S256x1.Idx → EReal) (q : Fin 256) :
    shapeCast S1x256x1 (Host.rsqrt (F := Ideal) (addf (subf
        (Host.divf (F := Ideal) s2 (broadcastInDim S256x1 ![] bcast_S_S256x1 (constant (F := Ideal) S_ .f32 0x48000000#32)))
        (mulf
          (Host.divf (F := Ideal) s1 (broadcastInDim S256x1 ![] bcast_S_S256x1 (constant (F := Ideal) S_ .f32 0x48000000#32)))
          (Host.divf (F := Ideal) s1 (broadcastInDim S256x1 ![] bcast_S_S256x1 (constant (F := Ideal) S_ .f32 0x48000000#32)))))
        (broadcastInDim S256x1 ![] bcast_S_S256x1 (constant (F := Ideal) S_ .f32 0x38D1B717#32))))
      shapeCasts_S256x1_S1x256x1 (ix3 (0 : Fin 1) q (0 : Fin 1))
      = Ideal.rsqrt ((Ideal.div (s2 (ix2 q 0)) Cert.BnSpec.cnt
          - Ideal.div (s1 (ix2 q 0)) Cert.BnSpec.cnt * Ideal.div (s1 (ix2 q 0)) Cert.BnSpec.cnt) + Cert.BnSpec.eps) := by
  rw [shapeCast_ab_1ab_apply]
  rfl

/-- The mean stage, as a term of what the first region left. -/
theorem v10_term (c : Dev nD) :
    (V2 m ρ c main_v10 : S1x256x1.Idx → EReal)
      = shapeCast S1x256x1 (Host.divf (F := Ideal) (W1 m ρ c (Proc.devRef .tc main_v0_0))
          (broadcastInDim S256x1 ![] bcast_S_S256x1 (constant (F := Ideal) S_ .f32 0x48000000#32)))
        shapeCasts_S256x1_S1x256x1 := by
  show StableHlo.after hostOps1 (W1 m ρ c) (Proc.devRef .tc main_v10) = _
  after_results
  rfl

/-- The scale stage, as a term of what the first region left. -/
theorem v11_term (c : Dev nD) :
    (V2 m ρ c main_v11 : S1x256x1.Idx → EReal)
      = shapeCast S1x256x1 (Host.rsqrt (F := Ideal) (addf (subf
          (Host.divf (F := Ideal) (W1 m ρ c (Proc.devRef .tc main_v0_1)) (broadcastInDim S256x1 ![] bcast_S_S256x1 (constant (F := Ideal) S_ .f32 0x48000000#32)))
          (mulf
            (Host.divf (F := Ideal) (W1 m ρ c (Proc.devRef .tc main_v0_0)) (broadcastInDim S256x1 ![] bcast_S_S256x1 (constant (F := Ideal) S_ .f32 0x48000000#32)))
            (Host.divf (F := Ideal) (W1 m ρ c (Proc.devRef .tc main_v0_0)) (broadcastInDim S256x1 ![] bcast_S_S256x1 (constant (F := Ideal) S_ .f32 0x48000000#32)))))
          (broadcastInDim S256x1 ![] bcast_S_S256x1 (constant (F := Ideal) S_ .f32 0x38D1B717#32))))
        shapeCasts_S256x1_S1x256x1 := by
  show StableHlo.after hostOps1 (W1 m ρ c) (Proc.devRef .tc main_v11) = _
  after_results
  rfl

/-- s1 := what region 0 left in its first result column, s2 := in its second. -/
theorem entry_mean (c : Dev nD) (q : Fin 256) :
    V2 m ρ c main_v10 (ix3 0 q 0) = Ideal.div (W1 m ρ c (Proc.devRef .tc main_v0_0) (ix2 q 0)) Cert.BnSpec.cnt :=
  (congrFun (v10_term m ρ c) (ix3 (0 : Fin 1) q (0 : Fin 1))).trans (mean_read _ q)

theorem entry_inv (c : Dev nD) (q : Fin 256) :
    V2 m ρ c main_v11 (ix3 0 q 0)
      = Ideal.rsqrt ((Ideal.div (W1 m ρ c (Proc.devRef .tc main_v0_1) (ix2 q 0)) Cert.BnSpec.cnt
          - Ideal.div (W1 m ρ c (Proc.devRef .tc main_v0_0) (ix2 q 0)) Cert.BnSpec.cnt
            * Ideal.div (W1 m ρ c (Proc.devRef .tc main_v0_0) (ix2 q 0)) Cert.BnSpec.cnt) + Cert.BnSpec.eps) :=
  (congrFun (v11_term m ρ c) (ix3 (0 : Fin 1) q (0 : Fin 1))).trans (inv_read _ _ q)

end Cert.KernelIdeal.BnHost
end
-- ==== Proof.BnNormPay.lean ====
/-
  The normalisation kernel's arithmetic at one entry. Its body loads a tile x[a, q, r] of two batch rows, the mean and
  the inverse deviation as [1, 256, 1] arrays (one number per channel q), and the transposed coefficients g[q, r],
  b[q, r]; it spreads the per-channel numbers over the tile and the coefficients over the two rows, and stores
  ((x − mean) · inv) · g + b. Read at the entry (a, q, r) that is
  ((x[a, q, r] − mean[0, q, 0]) · inv[0, q, 0]) · g[q, r] + b[q, r].
-/
import proofs.«161485_j4209067950399_2_alg».proof.Proof.Gen.KernelIdeal.Skeleton
import Idealize.ShloMosaic.Lib.ValueIdx
import Idealize.ShloMosaic.Lib.Pipeline.Value
import Idealize.ShloMosaic.Lib.ValueLayout

noncomputable section

namespace Cert.KernelIdeal.BnNormPay

open Cert.KernelIdeal Cert.KernelIdeal.Gen Idealize.ShloMosaic Idealize.ShloMosaic.ValueIdx

/-- A per-channel array [1, 256, 1] spread over a [2, 256, 2048] tile reads, at (a, q, r), its entry of channel q. -/
theorem spread_channel (v : FVec Ideal S1x256x1 .f32) (h : S1x256x1.Broadcasts S2x256x2048) (a : Fin 2) (q : Fin 256) (r : Fin 2048) :
    broadcastTo S2x256x2048 v h (ix3 a q r) = v (ix3 0 q 0) := by
  refine broadcastTo_apply v h (ix3 a q r) (ix3 0 q 0) fun ax => ?_
  match ax with
  | ⟨0, _⟩ => show (0 : ℕ) = if (1 : ℕ) = 1 then 0 else a.val; rw [if_pos rfl]
  | ⟨1, _⟩ => show q.val = if (256 : ℕ) = 1 then 0 else q.val; rw [if_neg (by decide)]
  | ⟨2, _⟩ => show (0 : ℕ) = if (1 : ℕ) = 1 then 0 else r.val; rw [if_pos rfl]

/-- A [1, 256, 2048] array spread over the two rows of a [2, 256, 2048] tile reads, at (a, q, r), its entry (0, q, r). -/
theorem spread_rows (v : FVec Ideal S1x256x2048 .f32) (h : S1x256x2048.Broadcasts S2x256x2048) (a : Fin 2) (q : Fin 256) (r : Fin 2048) :
    broadcastTo S2x256x2048 v h (ix3 a q r) = v (ix3 0 q r) := by
  refine broadcastTo_apply v h (ix3 a q r) (ix3 0 q r) fun ax => ?_
  match ax with
  | ⟨0, _⟩ => show (0 : ℕ) = if (1 : ℕ) = 1 then 0 else a.val; rw [if_pos rfl]
  | ⟨1, _⟩ => show q.val = if (256 : ℕ) = 1 then 0 else q.val; rw [if_neg (by decide)]
  | ⟨2, _⟩ => show r.val = if (2048 : ℕ) = 1 then 0 else r.val; rw [if_neg (by decide)]

/-- The stored value at (a, q, r). -/
theorem pay_norm (x0 : Vec Ideal S2x256x2048 .f32) (x1 x2 : Vec Ideal S1x256x1 .f32) (x3 x4 : Vec Ideal S256x2048 .f32)
    (a : Fin 2) (q : Fin 256) (r : Fin 2048) :
    k1_pay1 x0 x1 x2 x3 x4 (ix3 a q r)
      = ((x0 (ix3 a q r) - x1 (ix3 0 q 0)) * x2 (ix3 0 q 0)) * x3 (ix2 q r) + x4 (ix2 q r) := by
  unfold k1_pay1
  simp only [addf_apply, mulf_apply, subf_apply, shapeCast_self, spread_channel, spread_rows, shapeCast_ab_1ab_apply]

end Cert.KernelIdeal.BnNormPay

end
-- ==== Proof.BnNorm.lean ====
/-
  What the normalisation region leaves in the result array, as one function of the five arrays it reads.

  The region runs over 32 grid points. Point t stages block t of x — the two batch rows 2t and 2t + 1, all 256 channels
  and all 2048 positions —, the whole per-channel arrays mean[0, q, 0] and inv[0, q, 0], and the whole coefficient
  arrays g[q, r], b[q, r]; its body stores, at the entry (a, q, r) of the staged tile,
      ((x[2t + a, q, r] − mean[0, q, 0]) · inv[0, q, 0]) · g[q, r] + b[q, r],
  and the tile is written back to rows 2t, 2t + 1 of the result. An entry (p, q, r) of the result lies in the block of
  exactly the point t = p / 2 (with a = p mod 2), so the 32 blocks tile the array and the result is, at every index i,
      ((x i − mean[0, i₁, 0]) · inv[0, i₁, 0]) · g[i₁, i₂] + b[i₁, i₂].
-/
import proofs.«161485_j4209067950399_2_alg».proof.Proof.Gen.KernelIdeal.Frame
import proofs.«161485_j4209067950399_2_alg».proof.Proof.BnNormPay
import Idealize.ShloMosaic.Lib.Pipeline.Value

set_option maxRecDepth 16384

noncomputable section

namespace Cert.KernelIdeal.BnNorm

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The region's result as one function of the arrays it reads. -/
def normArr (x : Vec Ideal S64x256x2048 .f32) (mu inv : Vec Ideal S1x256x1 .f32) (g b : Vec Ideal S256x2048 .f32) : Vec Ideal S64x256x2048 .f32 :=
  fun i => ((x i - mu (ix3 0 (i 1) 0)) * inv (ix3 0 (i 1) 0)) * g (ix2 (i 1) (i 2)) + b (ix2 (i 1) (i 2))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps, decided over the grid: the tile of x and of the result is block t along the batch axis; the other
    four windows always stage their whole array. -/
theorem idx_facts : ∀ t : Fin cfg1.N,
    win1_0.index t (0 : Fin 3) = t.val ∧ win1_0.index t (1 : Fin 3) = 0 ∧ win1_0.index t (2 : Fin 3) = 0
    ∧ win1_5.index t (0 : Fin 3) = t.val ∧ win1_5.index t (1 : Fin 3) = 0 ∧ win1_5.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The staged tile of x at point t, entry (a, q, r), is x[2t + a, q, r]. -/
theorem blk_x (c : Dev nD) (t : Fin cfg1.N) (a : Fin 2) (q : Fin 256) (r : Fin 2048) (p : Fin 64)
    (hp : p.val = 2 * t.val + a.val) :
    iblk1 V c 0 t (ix3 a q r) = V c main_arg0 (ix3 p q r) := by
  obtain ⟨e0, e1, e2, -⟩ := idx_facts t
  show V c main_arg0 (((cfg1.win 0).blk t).view.emb (ix3 a q r)) = _
  refine congrArg (V c main_arg0) (funext fun ax => Fin.ext ?_)
  match ax with
  | ⟨0, _⟩ => show win1_0.index t (0 : Fin 3) * 2 + 1 * a.val = p.val; omega
  | ⟨1, _⟩ => show win1_0.index t (1 : Fin 3) * 256 + 1 * q.val = q.val; omega
  | ⟨2, _⟩ => show win1_0.index t (2 : Fin 3) * 2048 + 1 * r.val = r.val; omega

/-- The staged per-channel mean at point t is the whole array. -/
theorem blk_mu (c : Dev nD) (t : Fin cfg1.N) (q : Fin 256) :
    iblk1 V c 1 t (ix3 0 q 0) = V c main_v10 (ix3 0 q 0) := by
  obtain ⟨-, -, -, -, -, -, e0, e1, e2, -⟩ := idx_facts t
  show V c main_v10 (((cfg1.win 1).blk t).view.emb (ix3 0 q 0)) = _
  refine congrArg (V c main_v10) (funext fun ax => Fin.ext ?_)
  match ax with
  | ⟨0, _⟩ => show win1_1.index t (0 : Fin 3) * 1 + 1 * (0 : Fin 1).val = (0 : Fin 1).val; omega
  | ⟨1, _⟩ => show win1_1.index t (1 : Fin 3) * 256 + 1 * q.val = q.val; omega
  | ⟨2, _⟩ => show win1_1.index t (2 : Fin 3) * 1 + 1 * (0 : Fin 1).val = (0 : Fin 1).val; omega

/-- The staged per-channel inverse deviation at point t is the whole array. -/
theorem blk_inv (c : Dev nD) (t : Fin cfg1.N) (q : Fin 256) :
    iblk1 V c 2 t (ix3 0 q 0) = V c main_v11 (ix3 0 q 0) := by
  obtain ⟨-, -, -, -, -, -, -, -, -, e0, e1, e2, -⟩ := idx_facts t
  show V c main_v11 (((cfg1.win 2).blk t).view.emb (ix3 0 q 0)) = _
  refine congrArg (V c main_v11) (funext fun ax => Fin.ext ?_)
  match ax with
  | ⟨0, _⟩ => show win1_2.index t (0 : Fin 3) * 1 + 1 * (0 : Fin 1).val = (0 : Fin 1).val; omega
  | ⟨1, _⟩ => show win1_2.index t (1 : Fin 3) * 256 + 1 * q.val = q.val; omega
  | ⟨2, _⟩ => show win1_2.index t (2 : Fin 3) * 1 + 1 * (0 : Fin 1).val = (0 : Fin 1).val; omega

/-- The staged scale coefficients at point t are the whole array. -/
theorem blk_g (c : Dev nD) (t : Fin cfg1.N) (q : Fin 256) (r : Fin 2048) :
    iblk1 V c 3 t (ix2 q r) = V c main_v12 (ix2 q r) := by
  obtain ⟨-, -, -, -, -, -, -, -, -, -, -, -, e0, e1, -⟩ := idx_facts t
  show V c main_v12 (((cfg1.win 3).blk t).view.emb (ix2 q r)) = _
  refine congrArg (V c main_v12) (funext fun ax => Fin.ext ?_)
  match ax with
  | ⟨0, _⟩ => show win1_3.index t (0 : Fin 2) * 256 + 1 * q.val = q.val; omega
  | ⟨1, _⟩ => show win1_3.index t (1 : Fin 2) * 2048 + 1 * r.val = r.val; omega

/-- The staged shift coefficients at point t are the whole array. -/
theorem blk_b (c : Dev nD) (t : Fin cfg1.N) (q : Fin 256) (r : Fin 2048) :
    iblk1 V c 4 t (ix2 q r) = V c main_v13 (ix2 q r) := by
  obtain ⟨-, -, -, -, -, -, -, -, -, -, -, -, -, -, e0, e1⟩ := idx_facts t
  show V c main_v13 (((cfg1.win 4).blk t).view.emb (ix2 q r)) = _
  refine congrArg (V c main_v13) (funext fun ax => Fin.ext ?_)
  match ax with
  | ⟨0, _⟩ => show win1_4.index t (0 : Fin 2) * 256 + 1 * q.val = q.val; omega
  | ⟨1, _⟩ => show win1_4.index t (1 : Fin 2) * 2048 + 1 * r.val = r.val; omega

/-- Entry (a, q, r) of the result's block at point t is the array's entry (2t + a, q, r). -/
theorem emb_out (t : Fin cfg1.N) (a : Fin 2) (q : Fin 256) (r : Fin 2048) (p : Fin 64)
    (hp : p.val = 2 * t.val + a.val) :
    ((cfg1.win 5).blk t).view.emb (ix3 a q r) = ix3 p q r := by
  obtain ⟨-, -, -, e0, e1, e2, -⟩ := idx_facts t
  refine funext fun ax => Fin.ext ?_
  match ax with
  | ⟨0, _⟩ => show win1_5.index t (0 : Fin 3) * 2 + 1 * a.val = p.val; omega
  | ⟨1, _⟩ => show win1_5.index t (1 : Fin 3) * 256 + 1 * q.val = q.val; omega
  | ⟨2, _⟩ => show win1_5.index t (2 : Fin 3) * 2048 + 1 * r.val = r.val; omega

/-- What point t writes back is block t of the closed form. -/
theorem flushed_norm (c : Dev nD) (t : Fin cfg1.N) :
    (dat1 V c).flushed 5 t = ((cfg1.win 5).blk t).view.read (Elt Ideal)
      (normArr (V c main_arg0) (V c main_v10) (V c main_v11) (V c main_v12) (V c main_v13)) := by
  show (cfg1.win 5).cut (grid1.coords t) ((dat1 V c).after 5 t) = _
  rw [after1_5]
  unfold out1_5
  rw [View.canon_unit_zero hz3]
  simp only [View.ld_unit_zero (S := S2x256x2048) hz3, View.ld_unit_zero (S := S1x256x1) hz3,
    View.ld_unit_zero (S := S256x2048) hz2]
  funext j
  obtain ⟨a, q, r, rfl⟩ : ∃ (a : Fin 2) (q : Fin 256) (r : Fin 2048), j = ix3 a q r := ⟨j 0, j 1, j 2, eq_ix3 j⟩
  have ht : t.val < 32 := lt_of_lt_of_eq t.isLt (show cfg1.N = 32 from N_1)
  have ha : a.val < 2 := a.isLt
  have hp : 2 * t.val + a.val < 64 := by omega
  refine (Cert.KernelIdeal.BnNormPay.pay_norm _ _ _ _ _ a q r).trans ?_
  rw [blk_x V c t a q r ⟨2 * t.val + a.val, hp⟩ rfl, blk_mu V c t q, blk_inv V c t q, blk_g V c t q r, blk_b V c t q r]
  symm
  show normArr (V c main_arg0) (V c main_v10) (V c main_v11) (V c main_v12) (V c main_v13)
      (((cfg1.win 5).blk t).view.emb (ix3 a q r)) = _
  rw [emb_out t a q r ⟨2 * t.val + a.val, hp⟩ rfl]
  rfl

/-- An index of the result is in point t's block iff each coordinate is in the block's range on its axis. -/
theorem mem_blk (t : Fin cfg1.N) (i : S64x256x2048.Idx) :
    i ∈ ((cfg1.win 5).blk t).view.set ↔ ∀ a : Fin 3, win1_5.index t a * S2x256x2048.size a ≤ (i a).val
      ∧ (i a).val < win1_5.index t a * S2x256x2048.size a + S2x256x2048.size a := by
  show i ∈ ((View.whole main_v14).slice (win1_5.rect t)).set ↔ _
  rw [View.set_slice_whole, Rect.mem_set_unit]
  exact Iff.rfl

/-- The 32 blocks tile the result: the entry (p, q, r) lies in the block of the point p / 2. -/
theorem cover (i : S64x256x2048.Idx) :
    ∃ t : Fin cfg1.N, (cfg1.win 5).flush t = true ∧ i ∈ ((cfg1.win 5).blk t).view.set := by
  have h0 : (i 0).val < 64 := (i 0).isLt
  have h1 : (i 1).val < 256 := (i 1).isLt
  have h2 : (i 2).val < 2048 := (i 2).isLt
  have hN : (i 0).val / 2 < cfg1.N := by rw [show cfg1.N = 32 from N_1]; omega
  refine ⟨⟨(i 0).val / 2, hN⟩, flush1_5 _, ?_⟩
  rw [mem_blk]
  obtain ⟨-, -, -, e0, e1, e2, -⟩ := idx_facts ⟨(i 0).val / 2, hN⟩
  have e0' : win1_5.index ⟨(i 0).val / 2, hN⟩ (0 : Fin 3) = (i 0).val / 2 := e0
  intro a
  match a with
  | ⟨0, _⟩ =>
    show win1_5.index ⟨(i 0).val / 2, hN⟩ (0 : Fin 3) * 2 ≤ (i 0).val
      ∧ (i 0).val < win1_5.index ⟨(i 0).val / 2, hN⟩ (0 : Fin 3) * 2 + 2
    omega
  | ⟨1, _⟩ =>
    show win1_5.index ⟨(i 0).val / 2, hN⟩ (1 : Fin 3) * 256 ≤ (i 1).val
      ∧ (i 1).val < win1_5.index ⟨(i 0).val / 2, hN⟩ (1 : Fin 3) * 256 + 256
    omega
  | ⟨2, _⟩ =>
    show win1_5.index ⟨(i 0).val / 2, hN⟩ (2 : Fin 3) * 2048 ≤ (i 2).val
      ∧ (i 2).val < win1_5.index ⟨(i 0).val / 2, hN⟩ (2 : Fin 3) * 2048 + 2048
    omega

/-- The result array after the region is the closed form of the five arrays the region reads. -/
theorem final_norm (c : Dev nD) :
    (dat1 V c).arrAt 5 cfg1.N = normArr (V c main_arg0) (V c main_v10) (V c main_v11) (V c main_v12) (V c main_v13) :=
  (dat1 V c).arrAt_eq_of_cover 5 _ (fun t _ => flushed_norm V c t) cover

end Cert.KernelIdeal.BnNorm

end
-- ==== Proof.BnKernel.lean ====
/-
  The kernel program's result array as the specification's function of its three argument arrays.

  The program runs two grid regions with a stretch of whole-array operations between them.
  The first region visits the sixteen groups of four consecutive batch rows in turn and accumulates, per channel q, the
  sum of the group's entries and of their squares (per group first over the four rows, then over the positions); by
  commutativity and associativity of + these are the channel's total s1[q] = Σ_b Σ_r x[b, q, r] and
  s2[q] = Σ_b Σ_r x[b, q, r]².
  The operations in between form mean[q] = s1[q] / n, var[q] = s2[q] / n − mean[q]², inv[q] = rsqrt (var[q] + ε) with
  n = 131072, and exchange the two coordinates of the coefficient arrays; x is untouched.
  The second region writes ((x[p, q, r] − mean[q]) · inv[q]) · g[r, q] + b[r, q] at every (p, q, r).
  Composed, that is the specification's result with the variance taken as mean of squares minus squared mean.
-/
import proofs.«161485_j4209067950399_2_alg».proof.Proof.Gen.KernelIdeal.Frame
import proofs.«161485_j4209067950399_2_alg».proof.Proof.BnSpec
import proofs.«161485_j4209067950399_2_alg».proof.Proof.BnAlgebra
import proofs.«161485_j4209067950399_2_alg».proof.Proof.BnStats
import proofs.«161485_j4209067950399_2_alg».proof.Proof.BnHost
import proofs.«161485_j4209067950399_2_alg».proof.Proof.BnNorm

set_option maxRecDepth 16384

noncomputable section

namespace Cert.KernelIdeal.BnKernel

open Cert.KernelIdeal Cert.KernelIdeal.Gen Idealize.ShloMosaic Idealize.ShloMosaic.TcCoe Idealize.SL.Sem Idealize.ShloMosaic.ValueIdx
open Idealize.ShloMosaic.Pipeline (Dat)
open scoped BigOperators

/-- Row j of the i-th group of four, written with a remainder that never wraps for i < 16, is row 4 i + j. -/
theorem rowOf_eq (i : Fin 16) (j : Fin 4) : BnStats.rowOf i.val j = Cert.BnSpec.blockRow i j := by
  apply Fin.ext
  show (4 * i.val + j.val) % 64 = 4 * i.val + j.val
  have hi := i.isLt
  have hj := j.isLt
  omega

/-- The sixteen group sums of a channel's entries add up to the channel's total. -/
theorem grp1_total (x : Vec Ideal S64x256x2048 .f32) (q : Fin 256) :
    0 + ∑ i ∈ Finset.range 16, BnStats.grp1 x q i = Cert.BnSpec.total fun b r => x (ix3 b q r) := by
  rw [zero_add, Finset.sum_range, ← Cert.BnAlgebra.total_blocks]
  refine Finset.sum_congr rfl fun i _ => ?_
  unfold BnStats.grp1
  refine Finset.sum_congr rfl fun r _ => ?_
  refine Finset.sum_congr rfl fun j _ => ?_
  rw [rowOf_eq]

/-- The sixteen group sums of a channel's squared entries add up to the channel's total of squares. -/
theorem grp2_total (x : Vec Ideal S64x256x2048 .f32) (q : Fin 256) :
    0 + ∑ i ∈ Finset.range 16, BnStats.grp2 x q i = Cert.BnSpec.total fun b r => x (ix3 b q r) * x (ix3 b q r) := by
  rw [zero_add, Finset.sum_range, ← Cert.BnAlgebra.total_blocks]
  refine Finset.sum_congr rfl fun i _ => ?_
  unfold BnStats.grp2
  refine Finset.sum_congr rfl fun r _ => ?_
  refine Finset.sum_congr rfl fun j _ => ?_
  rw [rowOf_eq]

/-- The closed form of the second region, read at the entry (p, q, r). -/
theorem normArr_apply (x : Vec Ideal S64x256x2048 .f32) (mu inv : Vec Ideal S1x256x1 .f32) (g b : Vec Ideal S256x2048 .f32)
    (p : Fin 64) (q : Fin 256) (r : Fin 2048) :
    BnNorm.normArr x mu inv g b (ix3 p q r)
      = ((x (ix3 p q r) - mu (ix3 0 q 0)) * inv (ix3 0 q 0)) * g (ix2 q r) + b (ix2 q r) := rfl

variable (m : (ℓ : Loc nD τ sig) → Buf (Elt Ideal) ℓ) (ρ : Dev nD → PrngReg)

/-- The first region leaves, in its first column at the channel q, the total of the channel's entries. -/
theorem sum_chan (c : Dev nD) (q : Fin 256) :
    W1 m ρ c (Proc.devRef .tc main_v0_0) (ix2 q 0)
      = Cert.BnSpec.total fun b r => m ((c : Thread nD τ).loc main_arg0) (ix3 b q r) :=
  (congrFun (W1_arr m ρ c 1) (ix2 q 0)).trans ((BnStats.sum_at (V0 m ρ) c q 0).trans (grp1_total _ q))

/-- The launch contents of x on core c, as a function of the index (batch, channel, position). -/
abbrev xOf (c : Dev nD) : Cert.BnSpec.XIdx → EReal := m ((c : Thread nD τ).loc main_arg0)

/-- and, in its second column, the total of their squares. -/
theorem sumsq_chan (c : Dev nD) (q : Fin 256) :
    W1 m ρ c (Proc.devRef .tc main_v0_1) (ix2 q 0)
      = Cert.BnSpec.total fun b r => xOf m c (ix3 b q r) * xOf m c (ix3 b q r) :=
  (congrFun (W1_arr m ρ c 2) (ix2 q 0)).trans ((BnStats.sumsq_at (V0 m ρ) c q 0).trans (grp2_total _ q))

/-- The second region's per-channel mean is the specification's. -/
theorem mean_chan (c : Dev nD) (q : Fin 256) :
    V2 m ρ c main_v10 (ix3 0 q 0) = Cert.BnSpec.mean (m ((c : Thread nD τ).loc main_arg0)) q := by
  refine (BnHost.entry_mean m ρ c q).trans ?_
  rw [sum_chan m ρ c q]
  rfl

/-- The second region's per-channel scale is the specification's, with the variance as mean of squares minus squared
    mean. -/
theorem inv_chan (c : Dev nD) (q : Fin 256) :
    V2 m ρ c main_v11 (ix3 0 q 0)
      = Ideal.rsqrt (Cert.BnSpec.varK (m ((c : Thread nD τ).loc main_arg0)) q + Cert.BnSpec.eps) := by
  refine (BnHost.entry_inv m ρ c q).trans ?_
  rw [sum_chan m ρ c q, sumsq_chan m ρ c q]
  rfl

/-- The kernel program's result array is the specification's, with the variance as mean of squares minus squared mean. -/
theorem kernel_value (m : (ℓ : Loc nD τ sig) → Buf (Elt Ideal) ℓ) (ρ : Dev nD → PrngReg) (c : Dev nD) :
    W3 m ρ c (Proc.devRef .tc main_v14)
      = Cert.BnSpec.outArr (Cert.BnSpec.varK (m ((c : Thread nD τ).loc main_arg0)))
          (m ((c : Thread nD τ).loc main_arg0)) (m ((c : Thread nD τ).loc main_arg1)) (m ((c : Thread nD τ).loc main_arg2)) := by
  refine (W3_arr m ρ c 5).trans ?_
  refine (BnNorm.final_norm (V2 m ρ) c).trans ?_
  funext i
  obtain ⟨p, q, r, rfl⟩ : ∃ (p : Fin 64) (q : Fin 256) (r : Fin 2048), i = ix3 p q r := ⟨i 0, i 1, i 2, eq_ix3 i⟩
  refine (normArr_apply _ _ _ _ _ p q r).trans ?_
  rw [BnHost.entry_x m ρ c, mean_chan m ρ c q, inv_chan m ρ c q, BnHost.entry_g m ρ c q r, BnHost.entry_b m ρ c q r]
  rfl

end Cert.KernelIdeal.BnKernel

end
-- ==== Proof.lean ====
/-
  The certificate of a fused batch normalisation of x[b, q, r] (64 × 256 × 2048) per channel q with affine
  coefficients γ[r, q], β[r, q] that depend on the position r and the channel q.

  The kernel program makes two passes over x. The first accumulates, per channel, the sum and the sum of squares of the
  64 · 2048 entries (sixteen grid points of four batch rows each, into two running columns); host operations turn them
  into mean = sum / n and inv = rsqrt (sumsq / n − mean² + ε), n = 131072; the second pass writes
  ((x − mean) · inv) · γᵀ + βᵀ, two batch rows per grid point. The reference computes mean the same way, the variance as
  the mean of (x − mean)², and the same final expression.

  On the extended reals the two channel sums agree for every x (a regrouping of one finite sum), so the two means are
  one number; the two variances, Σ x² / n − mean² and Σ (x − mean)² / n, agree when every entry of x is a real number —
  which is what the precondition says — and then every later operation is applied to equal numbers on both sides.
  The idealization rewrote nothing, so its soundness claim is trivial; the three frames are the generated ones.
-/
import proofs.«161485_j4209067950399_2_alg».proof.Defs
import proofs.«161485_j4209067950399_2_alg».proof.Proof.Gen.Kernel
import proofs.«161485_j4209067950399_2_alg».proof.Proof.Gen.Kernel.Skeleton
import proofs.«161485_j4209067950399_2_alg».proof.Proof.Gen.Kernel.Launch
import proofs.«161485_j4209067950399_2_alg».proof.Proof.Gen.Kernel.Points
import proofs.«161485_j4209067950399_2_alg».proof.Proof.Gen.Kernel.Frame
import proofs.«161485_j4209067950399_2_alg».proof.Proof.Gen.KernelIdeal
import proofs.«161485_j4209067950399_2_alg».proof.Proof.Gen.KernelIdeal.Skeleton
import proofs.«161485_j4209067950399_2_alg».proof.Proof.Gen.KernelIdeal.Launch
import proofs.«161485_j4209067950399_2_alg».proof.Proof.Gen.KernelIdeal.Points
import proofs.«161485_j4209067950399_2_alg».proof.Proof.Gen.KernelIdeal.Frame
import proofs.«161485_j4209067950399_2_alg».proof.Proof.Gen.ReferenceIdeal
import proofs.«161485_j4209067950399_2_alg».proof.Proof.Gen.ReferenceIdeal.Run
import proofs.«161485_j4209067950399_2_alg».proof.Proof.Gen.ReferenceIdeal.Read
import proofs.«161485_j4209067950399_2_alg».proof.Proof.Gen.Pre_finite_inputs
import proofs.«161485_j4209067950399_2_alg».proof.Proof.BnSpec
import proofs.«161485_j4209067950399_2_alg».proof.Proof.BnAlgebra
import proofs.«161485_j4209067950399_2_alg».proof.Proof.BnReference
import proofs.«161485_j4209067950399_2_alg».proof.Proof.BnFinite
import proofs.«161485_j4209067950399_2_alg».proof.Proof.BnRun
import proofs.«161485_j4209067950399_2_alg».proof.Proof.BnKernel
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the normalisation of the same arguments; the kernel's with the variance as mean of
    squares minus squared mean, the reference's as mean squared deviation, which agree because the entries of x are
    real numbers. -/
theorem algebraic : Cert.algebraic_KernelIdeal_ReferenceIdeal := by
  intro m ρ m' ρ' hpre hagree
  refine ⟨fun c => Cert.BnSpec.outArr
      (Cert.BnSpec.varK (m ((c.tc : Thread Cert.KernelIdeal.nD Cert.KernelIdeal.τ).loc Cert.KernelIdeal.main_arg0)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.BnKernel.kernel_value m ρ c), (h c).2⟩)
      (Cert.KernelIdeal.BnRun.run_value m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v25_eq _ _ _).trans ((Cert.BnReference.ref_value _ _ _).trans ?_)
    rw [(hagree c).1, (hagree c).2.1, (hagree c).2.2]
    have hx := Cert.BnFinite.x_real _ _ _ (hpre c)
    exact congrArg (fun v => Cert.BnSpec.outArr v _ _ _) (funext fun q => Cert.BnAlgebra.varR_eq_varK _ hx q)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
